-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S128x128 : Shape := ⟨2, ![128, 128]⟩
abbrev S256x4096 : Shape := ⟨2, ![256, 4096]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S8x128, .f32⟩
  | .local _ .vmem, ⟨7, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096x1, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts₀]

class Facts : Prop extends Facts₀ where

variable [Facts]
-- ==== Proof.HingeSpec.lean ====
/-
  The loss that both programs compute, as one function of the three argument arrays, and the counting laws that
  join the two arrangements of its sum.

  For 4096 × 4096 arrays a0, a1, a2 and a row r, write d(a, b, r) for the sum over the 4096 lanes k of
  (a (r, k) - b (r, k))², and hinge r = max 0 (2 - √d(a0, a2, r) + √d(a0, a1, r)). The loss is 4096 times the sum of
  hinge r over the 4096 rows.

  The reference adds hinge j over a 4096 × 4096 table whose entry (i, j) does not depend on i: each of the 4096
  rows of the table adds up to the total, so the table adds up to 4096 copies of the total.

  The kernel cuts the rows into 16 tiles of 256 rows, adds hinge over each tile, writes tile i's sum into all
  8 × 128 entries of block i of a 128 × 128 array, adds that array up, divides by 1024 and multiplies by 4096. Each
  tile's sum is counted 1024 times, so the array adds up to 1024 copies of the total; dividing 1024 copies of an
  extended real by 1024 and multiplying by 4096 gives 4096 copies of it, with no finiteness needed: a sum of n
  copies of x is the product n · x for every extended real x, the quotient by a nonzero real is the product with
  its reciprocal, and the product of extended reals is commutative and associative.
-/
import Idealize.ShloMosaic.PureOps.Ideal.Laws
import Idealize.ShloMosaic.Lib.ValueIdx

noncomputable section

namespace Cert.Hinge

open Idealize.ShloMosaic Idealize.ShloMosaic.ValueIdx

/-- A 4096 × 4096 array of extended reals. -/
abbrev Mat : Type := (⟨2, ![4096, 4096]⟩ : Shape).Idx → EReal

/-- The squared distance between row r of a and row r of b. -/
def sqDist (a b : Mat) (r : Fin 4096) : EReal :=
  ∑ k : Fin 4096, (a (ix2 r k) - b (ix2 r k)) * (a (ix2 r k) - b (ix2 r k))

/-- The hinge of row r: max 0 (2 - ‖a0 r - a2 r‖ + ‖a0 r - a1 r‖). -/
def rowHinge (a0 a1 a2 : Mat) (r : Fin 4096) : EReal :=
  max 0 (Ideal.ofBits .f32 0x40000000#32 - Ideal.sqrt (sqDist a0 a2 r) + Ideal.sqrt (sqDist a0 a1 r))

/-- The hinges of all rows, added up. -/
def total (a0 a1 a2 : Mat) : EReal := ∑ r : Fin 4096, rowHinge a0 a1 a2 r

/-- The loss: 4096 copies of the total. -/
def loss (a0 a1 a2 : Mat) : EReal := 4096 • total a0 a1 a2

/-- The hinges of the 256 rows of tile i, added up. -/
def tileSum (a0 a1 a2 : Mat) (i : Fin 16) : EReal :=
  ∑ p : Fin 256, rowHinge a0 a1 a2 ⟨256 * i.val + p.val, by have := i.isLt; have := p.isLt; omega⟩

/-- The 128 × 128 array of partial sums: every entry of the 8 rows of block i holds tile i's sum. -/
def partials (a0 a1 a2 : Mat) : (⟨2, ![128, 128]⟩ : Shape).Idx → EReal :=
  fun j => tileSum a0 a1 a2 ⟨(j 0).val / 8, by have := idx2_lt0 j; omega⟩

/-! ## Counting -/

/-- A sum of n copies of c. -/
theorem sum_copies {M : Type*} [AddCommMonoid M] (n : ℕ) (c : M) : ∑ _i : Fin n, c = n • c := by
  rw [Finset.sum_const, Finset.card_univ, Fintype.card_fin]

/-- A sum over m · n consecutive indices, cut into m runs of n. -/
theorem sum_runs {M : Type*} [AddCommMonoid M] (m n : ℕ) (h : Fin (m * n) → M) :
    ∑ r : Fin (m * n), h r = ∑ i : Fin m, ∑ p : Fin n, h (finProdFinEquiv (i, p)) := by
  rw [← Equiv.sum_comp finProdFinEquiv h, Fintype.sum_prod_type]

/-- The total is the sum of the 16 tiles' sums. -/
theorem total_tiles (a0 a1 a2 : Mat) : total a0 a1 a2 = ∑ i : Fin 16, tileSum a0 a1 a2 i := by
  unfold total tileSum
  refine (sum_runs 16 256 (fun r => rowHinge a0 a1 a2 r)).trans ?_
  refine Finset.sum_congr rfl fun i _ => Finset.sum_congr rfl fun p _ => congrArg _ (Fin.ext ?_)
  show (finProdFinEquiv (i, p)).val = 256 * i.val + p.val
  rw [finProdFinEquiv_apply_val]
  show p.val + 256 * i.val = 256 * i.val + p.val
  omega

/-- The array of partial sums adds up to 1024 copies of the total. -/
theorem sum_partials (a0 a1 a2 : Mat) : ∑ j, partials a0 a1 a2 j = 1024 • total a0 a1 a2 := by
  rw [sum_idx2]
  have hrow : ∀ a : Fin 128, ∑ b : Fin 128, partials a0 a1 a2 (ix2 a b)
      = 128 • tileSum a0 a1 a2 ⟨a.val / 8, by have := a.isLt; omega⟩ := fun a => by
    rw [← sum_copies]; rfl
  rw [Finset.sum_congr rfl fun a _ => hrow a, ← Finset.smul_sum]
  have hcol : ∑ a : Fin 128, tileSum a0 a1 a2 ⟨a.val / 8, by have := a.isLt; omega⟩ = 8 • ∑ i : Fin 16, tileSum a0 a1 a2 i := by
    refine (sum_runs 16 8 (fun a : Fin 128 => tileSum a0 a1 a2 ⟨a.val / 8, by have := a.isLt; omega⟩)).trans ?_
    rw [Finset.smul_sum]
    refine Finset.sum_congr rfl fun i _ => ?_
    rw [← sum_copies]
    refine Finset.sum_congr rfl fun q _ => congrArg _ (Fin.ext ?_)
    show (finProdFinEquiv (i, q)).val / 8 = i.val
    rw [finProdFinEquiv_apply_val]
    show (q.val + 8 * i.val) / 8 = i.val
    have := q.isLt
    omega
  rw [hcol, total_tiles, smul_smul]
  rfl

/-! ## The two literals of the kernel's last lines, and the scaling -/

theorem ofBits_1024 : Ideal.ofBits .f32 0x44800000#32 = ((1024 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

/-- 1024 copies of x, divided by 1024 and multiplied by 4096, are 4096 copies of x, for every extended real x. -/
theorem scale_copies (x : EReal) :
    Ideal.div (0 + 1024 • x) (Ideal.ofBits .f32 0x44800000#32) * Ideal.ofBits .f32 0x45800000#32 = 4096 • x := by
  have e1 : ((1024 : ℕ) : EReal) = ((1024 : ℝ) : EReal) := by rw [← EReal.coe_natCast]; norm_num
  have e2 : ((4096 : ℕ) : EReal) = ((4096 : ℝ) : EReal) := by rw [← EReal.coe_natCast]; norm_num
  rw [zero_add, ofBits_1024, ofBits_4096, Ideal.div_coe (by norm_num : (1024 : ℝ) ≠ 0), EReal.nsmul_eq_mul, EReal.nsmul_eq_mul,
    e1, e2, mul_comm ((1024 : ℝ) : EReal) x, mul_assoc, mul_assoc, ← EReal.coe_mul, ← EReal.coe_mul, mul_comm x]
  have h : (1024 : ℝ) * (1 / 1024 * 4096) = 4096 := by norm_num
  rw [h]

end Cert.Hinge

end
-- ==== Proof.HingeReference.lean ====
/-
  The reference's result, read at the ideal instance, is the loss.

  The reference builds a 4096 × 4096 table whose entry (i, j) is max 0 (2 - ‖a0 j - a2 j‖ + ‖a0 j - a1 j‖): the
  column j's hinge, whatever the row i (a zero column [4096, 1] broadcast along the lanes against the row [1, 4096] of
  the per-sample values broadcast along the rows). It adds the whole table up from zero. Each row of the table adds up
  to the total of the hinges, so the table adds up to 4096 copies of the total.
-/
import proofs.«154257_j26482768347185_2_alg».proof.Proof.Gen.ReferenceIdeal.Read
import proofs.«154257_j26482768347185_2_alg».proof.Proof.HingeSpec

noncomputable section

namespace Cert.Hinge.Reference

open Cert.ReferenceIdeal Cert.ReferenceIdeal.Read Idealize.ShloMosaic Idealize.ShloMosaic.ValueIdx Cert.Hinge

/-- Lane k of row b, for the first row sum. -/
theorem lane_v2 (b k : Fin 4096) : idx_main_v2 (ix1 b) k = ix2 b k :=
  funext fun a => Fin.ext (by match a with | ⟨0, _⟩ => rfl | ⟨1, _⟩ => rfl)

/-- Lane k of row b, for the second row sum. -/
theorem lane_v6 (b k : Fin 4096) : idx_main_v6 (ix1 b) k = ix2 b k :=
  funext fun a => Fin.ext (by match a with | ⟨0, _⟩ => rfl | ⟨1, _⟩ => rfl)

/-- Entry (a, b) of the table reads the per-sample vector at b. -/
theorem column_of_entry (a b : Fin 4096) : idx_main_v12 (idx_main_v14 (ix2 a b)) = ix1 b :=
  funext fun d => Fin.ext (by match d with | ⟨0, _⟩ => rfl)

/-- Entry (a, b) of the table is the hinge of sample b. -/
theorem table_apply (x0 x1 x2 : Mat) (a b : Fin 4096) :
    val_main_v15 (F := Ideal) x0 x1 x2 (ix2 a b) = rowHinge x0 x1 x2 b := by
  rw [val_main_v15_apply, val_main_v13_apply, val_main_v11_apply, val_main_cst_2_apply, val_main_v14_apply,
    val_main_v12_apply, column_of_entry, val_main_v10_apply, val_main_v9_apply, val_main_v8_apply, val_main_cst_1_apply,
    val_main_v3_apply, val_main_v2_apply, val_main_v7_apply, val_main_v6_apply]
  simp only [lane_v2, lane_v6, val_main_v1_apply, val_main_v0_apply, val_main_v5_apply, val_main_v4_apply,
    val_main_cst_apply, val_main_cst_0_apply, Ideal.ofBits_def, Ideal.ofBits_zero_f32, zero_add, Ideal.maximumf_def,
    Ideal.addf_def, Ideal.subf_def, Ideal.mulf_def, Ideal.hostUnary_sqrt_def]
  rfl

/-- The reference's result is the loss. -/
theorem result_eq (x0 x1 x2 : Mat) (i : S_.Idx) : val_main_v16 (F := Ideal) x0 x1 x2 i = loss x0 x1 x2 := by
  rw [val_main_v16_apply, val_main_cst_3_apply, Ideal.ofBits_def, Ideal.ofBits_zero_f32, zero_add, sum_idx2]
  simp only [table_apply]
  exact sum_copies 4096 (total x0 x1 x2)

end Cert.Hinge.Reference

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«154257_j26482768347185_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.HingePayload.lean ====
/-
  What the kernel's body stores, read at an index of the 8 × 128 output block, at the ideal instance.

  The body loads a tile of 256 rows of each of the three arrays. For every row p of the tile it forms the two squared
  distances (lane sums of the squared differences, cast from a vector [256] to a column [256, 1]), their square roots,
  and max 0 (2 - first root + second root): the row's hinge. It adds the 256 hinges (a sum down the one column), and
  broadcasts the one number to all 8 × 128 entries of the block. So every entry of the stored block is the sum of the
  tile's 256 row hinges.
-/
import proofs.«154257_j26482768347185_2_alg».proof.Proof.Gen.KernelIdeal.Skeleton
import proofs.«154257_j26482768347185_2_alg».proof.Proof.HingeSpec
import proofs.«154257_j26482768347185_2_alg».proof.Proof.LibRowRead
import Idealize.ShloMosaic.Lib.Pipeline.Value

noncomputable section

namespace Cert.Hinge.Body

open Cert.KernelIdeal Cert.KernelIdeal.Gen Idealize.ShloMosaic Idealize.ShloMosaic.ValueIdx Cert.Hinge Cert.Lib.RowRead

/-- The hinge of row p of a tile of 256 rows. -/
def tileRowHinge (x0 x1 x2 : FVec Ideal S256x4096 .f32) (p : Fin 256) : EReal :=
  max 0 (Ideal.ofBits .f32 0x40000000#32
      - Ideal.sqrt (∑ k : Fin 4096, (x0 (ix2 p k) - x2 (ix2 p k)) * (x0 (ix2 p k) - x2 (ix2 p k)))
    + Ideal.sqrt (∑ k : Fin 4096, (x0 (ix2 p k) - x1 (ix2 p k)) * (x0 (ix2 p k) - x1 (ix2 p k))))

/-- A tile's row whose entries are those of row r of the arrays has row r's hinge. -/
theorem tileRowHinge_eq (x0 x1 x2 : FVec Ideal S256x4096 .f32) (A0 A1 A2 : Mat) (p : Fin 256) (r : Fin 4096)
    (h0 : ∀ k : Fin 4096, x0 (ix2 p k) = A0 (ix2 r k)) (h1 : ∀ k : Fin 4096, x1 (ix2 p k) = A1 (ix2 r k))
    (h2 : ∀ k : Fin 4096, x2 (ix2 p k) = A2 (ix2 r k)) : tileRowHinge x0 x1 x2 p = rowHinge A0 A1 A2 r := by
  unfold tileRowHinge rowHinge sqDist
  simp only [h0, h1, h2]

/-- The reduced index of a sum down a column [a, 1], with row k put back, is (k, 0). -/
theorem lift_col {a : ℕ} (h : (⟨2, ![a, 1]⟩ : Shape).Reduces [0] (⟨1, ![1]⟩ : Shape))
    (k : Fin ((⟨2, ![a, 1]⟩ : Shape).size 0)) : h.lift (ix1 (0 : Fin 1)) k = ix2 (⟨k.val, k.isLt⟩ : Fin a) (0 : Fin 1) := by
  funext c; apply Fin.ext
  fin_cases c <;> rfl

/-- The column of hinges, at row p: the hinge of the tile's row p. -/
theorem hinge_entry (x0 x1 x2 : FVec Ideal S256x4096 .f32) (hφ : FKind.Formats .f32)
    (hacc : (0x00000000#32 : BitVec 32) = FKind.add.neutral .f32 hφ) (p : Fin 256) :
    maximumf (broadcast S256x1 (FloatOps.ofBits (F := Ideal) .f32 0x00000000#32))
      (addf
        (subf (broadcast S256x1 (FloatOps.ofBits (F := Ideal) .f32 0x40000000#32))
          (sqrt (shapeCast S256x1 (multiReduction .add [1] S256 (mulf (subf x0 x2) (subf x0 x2)) 0x00000000#32
            reduces_S256x4096_S256 hφ hacc) shapeCasts_S256_S256x1)))
        (sqrt (shapeCast S256x1 (multiReduction .add [1] S256 (mulf (subf x0 x1) (subf x0 x1)) 0x00000000#32
          reduces_S256x4096_S256 hφ hacc) shapeCasts_S256_S256x1)))
      (ix2 p (0 : Fin 1)) = tileRowHinge x0 x1 x2 p := by
  show max (Ideal.ofBits .f32 0x00000000#32)
      (Ideal.ofBits .f32 0x40000000#32 - Ideal.sqrt (shapeCast S256x1 _ shapeCasts_S256_S256x1 (ix2 p (0 : Fin 1)))
        + Ideal.sqrt (shapeCast S256x1 _ shapeCasts_S256_S256x1 (ix2 p (0 : Fin 1)))) = _
  rw [shapeCast_a_a1_apply, shapeCast_a_a1_apply, rowSum_apply, rowSum_apply, Ideal.ofBits_zero_f32]
  rfl

/-- Every entry of the stored block is the sum of the tile's 256 row hinges. -/
theorem payload_apply (x0 x1 x2 : Vec Ideal S256x4096 .f32) (a : Fin 8) (b : Fin 128) :
    k0_pay1 (F := Ideal) x0 x1 x2 (ix2 a b) = ∑ p : Fin 256, tileRowHinge x0 x1 x2 p := by
  unfold k0_pay1
  dsimp only
  refine (broadcastTo_apply _ broadcasts_S1x1_S8x128 (ix2 a b) (ix2 (0 : Fin 1) (0 : Fin 1))
    (fun ax => by match ax with | ⟨0, _⟩ => rfl | ⟨1, _⟩ => rfl)).trans ?_
  rw [shapeCast_self]
  refine (shapeCast_a_a1_apply _ shapeCasts_S1_S1x1 (0 : Fin 1) (0 : Fin 1)).trans ?_
  refine (Ideal.multiReduction_add_single _ 0x00000000#32 reduces_S256x1_S1 (.inl rfl) rfl (ix1 (0 : Fin 1))).trans ?_
  exact Finset.sum_congr rfl fun k _ => by
    rw [lift_col]
    exact hinge_entry x0 x1 x2 _ _ ⟨k.val, k.isLt⟩

end Cert.Hinge.Body

end
-- ==== Proof.HingeBlocks.lean ====
/-
  The array of partial sums after the kernel's 16 grid points, at the ideal instance.

  Grid point t loads rows 256 t … 256 t + 255 of each argument array (all 4096 lanes) and writes back block t of the
  128 × 128 output array: rows 8 t … 8 t + 7, all 128 lanes. What it writes is, at every entry, the sum of the hinges of
  the tile's 256 rows, which are rows 256 t + p of the arrays: tile t's sum. The 16 blocks cover the output array (row
  i lies in block i / 8), so after the run the array is the array of partial sums of the three argument arrays as the
  region finds them.
-/
import proofs.«154257_j26482768347185_2_alg».proof.Proof.Gen.KernelIdeal.Frame
import proofs.«154257_j26482768347185_2_alg».proof.Proof.HingePayload
import Idealize.ShloMosaic.Lib.Pipeline.Value

noncomputable section

namespace Cert.Hinge.Blocks

open Cert.KernelIdeal Cert.KernelIdeal.Gen Idealize.ShloMosaic Idealize.ShloMosaic.TcCoe Idealize.SL.Sem
open Idealize.ShloMosaic.ValueIdx Cert.Hinge Cert.Hinge.Body
open Idealize.ShloMosaic.Pipeline (Dat)

variable (m : (ℓ : Loc nD τ sig) → Buf (Elt Ideal) ℓ)

/-- The body's one load rectangle per buffer and its one store rectangle start at the origin. -/
theorem origin : (![0, 0] : Fin 2 → Nat) = fun _ => 0 := funext fun a => by fin_cases a <;> rfl

/-- An entry of the array of partial sums whose row lies in block q holds tile q's sum. -/
theorem partials_at (A0 A1 A2 : Mat) (i : (⟨2, ![128, 128]⟩ : Shape).Idx) (q : Fin 16) (hq : (i 0).val / 8 = q.val) :
    partials A0 A1 A2 i = tileSum A0 A1 A2 q := by
  unfold partials
  exact congrArg _ (Fin.ext hq)

/-- The block indices over the grid: every input window is at block row t and block column 0 where the output window
    is at block row t, block column 0; and the block row is below 16. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 15 ∧ win0_3.index t (1 : Fin 2) = 0 :=
  (by decide +kernel : ∀ t : Fin grid0.N, _)

/-- Every block row is some point's. -/
theorem idx_onto : ∀ q : Fin 16, ∃ t : Fin cfg0.N, win0_3.index t = ![q.val, 0] :=
  (by decide +kernel : ∀ q : Fin 16, ∃ t : Fin grid0.N, win0_3.index t = ![q.val, 0])

/-- Row p, lane k of the first array's tile at point t is row r, lane k of the array, r = 256 (block row) + p. -/
theorem tile0_apply (c : Dev nD) (t : Fin cfg0.N) (p : Fin 256) (k : Fin 4096) (r : Fin 4096)
    (hr : r.val = win0_3.index t (0 : Fin 2) * 256 + p.val) :
    iblk m c 0 t (ix2 p k) = V m c main_arg0 (ix2 r k) := by
  obtain ⟨e0, e0', -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- The same for the second array's tile. -/
theorem tile1_apply (c : Dev nD) (t : Fin cfg0.N) (p : Fin 256) (k : Fin 4096) (r : Fin 4096)
    (hr : r.val = win0_3.index t (0 : Fin 2) * 256 + p.val) :
    iblk m c 1 t (ix2 p k) = V m c main_arg1 (ix2 r k) := by
  obtain ⟨-, -, e1, e1', -⟩ := idx_facts t
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 256 + 1 * p.val = r.val; omega
  | ⟨1, _⟩ => show win0_1.index t (1 : Fin 2) * 4096 + 1 * k.val = k.val; omega

/-- The same for the third array's tile. -/
theorem tile2_apply (c : Dev nD) (t : Fin cfg0.N) (p : Fin 256) (k : Fin 4096) (r : Fin 4096)
    (hr : r.val = win0_3.index t (0 : Fin 2) * 256 + p.val) :
    iblk m c 2 t (ix2 p k) = V m c main_arg2 (ix2 r k) := by
  obtain ⟨-, -, -, -, e2, e2', -⟩ := idx_facts t
  show V m c main_arg2 (((cfg0.win 2).blk t).view.emb (ix2 p k)) = V m c main_arg2 (ix2 r k)
  refine congrArg _ (funext fun a => Fin.ext ?_)
  match a with
  | ⟨0, _⟩ => show win0_2.index t (0 : Fin 2) * 256 + 1 * p.val = r.val; omega
  | ⟨1, _⟩ => show win0_2.index t (1 : Fin 2) * 4096 + 1 * k.val = k.val; omega

/-- WHAT POINT t WRITES BACK is block t of the array of partial sums. -/
theorem flushed_eq (c : Dev nD) (t : Fin cfg0.N) :
    (dats m 0 c).flushed 3 t = ((cfg0.win 3).blk t).view.read (Elt Ideal)
      (partials (V m c main_arg0) (V m c main_arg1) (V m c main_arg2)) := by
  show (cfg0.win 3).cut (grid0.coords t) ((dats m 0 c).after 3 t) = _
  rw [after0_3]
  unfold out0_3
  rw [View.canon_unit_zero origin]
  simp only [View.ld_unit_zero (S := S256x4096) origin]
  obtain ⟨-, -, -, -, -, -, e3, e3'⟩ := idx_facts t
  funext j
  show k0_pay1 (iblk m c 0 t) (iblk m c 1 t) (iblk m c 2 t) (ix2 (j 0 : Fin 8) (j 1 : Fin 128))
    = partials (V m c main_arg0) (V m c main_arg1) (V m c main_arg2) (((cfg0.win 3).blk t).view.emb j)
  have hq : ((((cfg0.win 3).blk t).view.emb j) 0).val / 8 = win0_3.index t (0 : Fin 2) := by
    show (win0_3.index t (0 : Fin 2) * 8 + 1 * (j 0).val) / 8 = win0_3.index t (0 : Fin 2)
    have hj : (j 0).val < 8 := (j 0).isLt
    omega
  refine (payload_apply (iblk m c 0 t) (iblk m c 1 t) (iblk m c 2 t) (j 0) (j 1)).trans ?_
  refine Eq.trans ?_ (partials_at _ _ _ _ ⟨win0_3.index t (0 : Fin 2), by omega⟩ hq).symm
  unfold tileSum
  refine Finset.sum_congr rfl fun p _ => ?_
  exact tileRowHinge_eq _ _ _ _ _ _ p _ (fun k => tile0_apply m c t p k _ (by show 256 * win0_3.index t (0 : Fin 2) + p.val = _; omega))
    (fun k => tile1_apply m c t p k _ (by show 256 * win0_3.index t (0 : Fin 2) + p.val = _; omega))
    (fun k => tile2_apply m c t p k _ (by show 256 * win0_3.index t (0 : Fin 2) + p.val = _; omega))

/-- An index of the output array is in point t's block iff each coordinate is in the block's range on its axis. -/
theorem mem_blk (t : Fin cfg0.N) (i : S128x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v0).slice (win0_3.rect t)).set ↔ _
  rw [View.set_slice_whole, Rect.mem_set_unit]
  exact Iff.rfl

/-- The 16 blocks cover the output array: row i is in block i / 8. -/
theorem cover (i : S128x128.Idx) :
    ∃ t : Fin cfg0.N, (cfg0.win 3).flush t = true ∧ i ∈ ((cfg0.win 3).blk t).view.set := by
  have hi0 : (i 0).val < 128 := (i 0).isLt
  have hi1 : (i 1).val < 128 := (i 1).isLt
  obtain ⟨t, ht⟩ := idx_onto ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 128 ≤ (i 1).val ∧ (i 1).val < win0_3.index t (1 : Fin 2) * 128 + 128
    omega

/-- THE OUTPUT ARRAY after the run is the array of partial sums. -/
theorem final (c : Dev nD) :
    (dats m 0 c).arrAt 3 cfg0.N = partials (V m c main_arg0) (V m c main_arg1) (V m c main_arg2) :=
  (dats m 0 c).arrAt_eq_of_cover 3 _ (fun t _ => flushed_eq m c t) cover

end Cert.Hinge.Blocks

end
-- ==== Proof.HingeKernelRun.lean ====
/-
  The kernel program's run, read at the ideal instance: its result is the loss of its three argument arrays.

  After the one region the 128 × 128 array holds the partial sums (16 blocks, block t filled with tile t's sum). The
  host lines after the region add that array up from zero, divide by 1024 and multiply by 4096. The array adds up to
  1024 copies of the total of the row hinges, so the result is 4096 copies of the total: the loss.
-/
import proofs.«154257_j26482768347185_2_alg».proof.Proof.HingeBlocks
import Idealize.ShloMosaic.Lib.StableHlo.Run

noncomputable section

namespace Cert.Hinge.KernelRun

open Cert.KernelIdeal Cert.KernelIdeal.Gen Idealize.ShloMosaic Idealize.ShloMosaic.TcCoe Idealize.SL.Sem
open Idealize.ShloMosaic.StableHlo Idealize.ShloMosaic.ValueIdx Cert.Hinge

/-- The host lines after the region, applied to the array of partial sums, give the loss. -/
theorem tail_value (A0 A1 A2 : Mat) :
    mulf (F := Ideal) (Host.divf (F := Ideal) (Host.reduceAdd (F := Ideal) (φ := .f32) (s := S128x128) (partials A0 A1 A2)
        (constant (F := Ideal) S_ .f32 0x00000000#32) reducesTo_S128x128_S_d0_1 h_S_) (constant (F := Ideal) S_ .f32 0x44800000#32))
      (constant (F := Ideal) S_ .f32 0x45800000#32) = fun _ => loss A0 A1 A2 := by
  funext i
  show Ideal.div (Host.reduceAdd (F := Ideal) (φ := .f32) (s := S128x128) _ _ reducesTo_S128x128_S_d0_1 h_S_ i) (Ideal.ofBits .f32 0x44800000#32)
    * Ideal.ofBits .f32 0x45800000#32 = _
  simp only [Host.reduceAdd, Ideal.hostReduceAdd_def]
  rw [Ideal.hostReduceAdd_total reducesTo_S128x128_S_d0_1 (fun b => b.elim0), sum_partials]
  show Ideal.div (Ideal.ofBits .f32 0x00000000#32 + _) _ * _ = _
  rw [Ideal.ofBits_zero_f32]
  exact scale_copies _

variable (m : (ℓ : Loc nD τ sig) → Buf (Elt Ideal) ℓ) (ρ : Dev nD → PrngReg)

/-- The program's result buffer after the host lines that follow the region. -/
theorem result_eq (c : Dev nD) :
    Pipeline.afterTail₀ cfgs (dats m) 0 (V0 m) [hostOps1] c main_v3
      = fun _ => loss (m ((c.tc : Thread nD τ).loc main_arg0)) (m ((c.tc : Thread nD τ).loc main_arg1))
          (m ((c.tc : Thread nD τ).loc main_arg2)) := by
  have harr : Pipeline.withArrays (cfgs 0).spec c (V0 m c) (fun w => (dats m 0 c).arrAt w (cfgs 0).N) (Proc.devRef .tc main_v0)
      = partials (V m c main_arg0) (V m c main_arg1) (V m c main_arg2) :=
    (Pipeline.withArrays_arr spec0 launch0.win.arr_inj c _ _ 3).trans (Blocks.final m c)
  unfold Pipeline.afterTail₀
  show StableHlo.after hostOps1 _ (Proc.devRef .tc main_v3) = _
  after_results
  rw [harr]
  exact tail_value _ _ _

/-- Every weakly fair execution of the kernel program terminates with its result at the loss of the argument arrays,
    the arguments unchanged. -/
theorem run : θ_run defs (onTc (τ := τ) (main (F := Ideal))) ⟨m, fun _ => 0, ρ⟩ (fun r => ∀ c : Dev nD,
      r.2.mem ((c.tc : Thread nD τ).loc main_v3)
        = (fun _ => loss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Hinge.KernelRun

end
-- ==== Proof.lean ====
/-
  The certificate: a triplet-margin hinge loss over 4096 samples of 4096 features, computed by a row-tiled kernel with
  a short host tail, against its plain reference.

  For arrays a0, a1, a2 the per-sample hinge is max 0 (2 - ‖a0 r - a2 r‖ + ‖a0 r - a1 r‖), the norms being square roots
  of lane sums of squared differences. The reference spreads the 4096 hinges over a 4096 × 4096 table (entry (i, j) the
  hinge of sample j) and adds the table up: 4096 copies of the total. The kernel adds the hinges tile by tile (16 tiles
  of 256 rows), fills block t of a 128 × 128 array with tile t's sum, and the host lines after it add that array up
  (1024 copies of the total), divide by 1024 and multiply by 4096: again 4096 copies of the total. On the extended reals
  a sum of n copies is the product by n, the quotient by 1024 the product with 1/1024, and products commute and
  associate, so the two results are equal whatever the inputs; the precondition is not needed for the equality.

  The three frames are the programs' runs with the results dropped; the idealization rewrote nothing, so that conjunct
  is trivial.
-/
import proofs.«154257_j26482768347185_2_alg».proof.Defs
import proofs.«154257_j26482768347185_2_alg».proof.Proof.Gen.Kernel
import proofs.«154257_j26482768347185_2_alg».proof.Proof.Gen.Kernel.Skeleton
import proofs.«154257_j26482768347185_2_alg».proof.Proof.Gen.Kernel.Launch
import proofs.«154257_j26482768347185_2_alg».proof.Proof.Gen.Kernel.Points
import proofs.«154257_j26482768347185_2_alg».proof.Proof.Gen.Kernel.Frame
import proofs.«154257_j26482768347185_2_alg».proof.Proof.Gen.KernelIdeal
import proofs.«154257_j26482768347185_2_alg».proof.Proof.Gen.KernelIdeal.Skeleton
import proofs.«154257_j26482768347185_2_alg».proof.Proof.Gen.KernelIdeal.Launch
import proofs.«154257_j26482768347185_2_alg».proof.Proof.Gen.KernelIdeal.Points
import proofs.«154257_j26482768347185_2_alg».proof.Proof.Gen.KernelIdeal.Frame
import proofs.«154257_j26482768347185_2_alg».proof.Proof.Gen.ReferenceIdeal
import proofs.«154257_j26482768347185_2_alg».proof.Proof.Gen.Pre_finite_inputs
import proofs.«154257_j26482768347185_2_alg».proof.Proof.Gen.ReferenceIdeal.Run
import proofs.«154257_j26482768347185_2_alg».proof.Proof.Gen.ReferenceIdeal.Read
import proofs.«154257_j26482768347185_2_alg».proof.Proof.HingeReference
import proofs.«154257_j26482768347185_2_alg».proof.Proof.HingeKernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the loss of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Hinge.KernelRun.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v16_eq, (hagree c).1, (hagree c).2.1, (hagree c).2.2]
  exact funext fun i => Cert.Hinge.Reference.result_eq _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
